-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S10000x256 .f32) (main_arg1 : FVec F S10000x10000 .f32) (main_arg2 : FVec F S256x256 .f32) (main_arg3 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S2000x256 : Shape := ⟨2, ![2000, 256]⟩
abbrev S200x10000 : Shape := ⟨2, ![200, 10000]⟩
abbrev S200x256 : Shape := ⟨2, ![200, 256]⟩

abbrev nBuf : Space → Nat
  | .hbm => 8
  | .vmem => 13
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S10000x256, .bf16⟩
  | .hbm, ⟨6, _⟩ => ⟨S10000x256, .f32⟩
  | .hbm, ⟨7, _⟩ => ⟨S10000x10000, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x256, .bf16⟩
  | .local _ .vmem, ⟨5, _⟩ => ⟨S2000x256, .bf16⟩
  | .local _ .vmem, ⟨6, _⟩ => ⟨S200x10000, .f32⟩
  | .local _ .vmem, ⟨7, _⟩ => ⟨S200x10000, .f32⟩
  | .local _ .vmem, ⟨8, _⟩ => ⟨S10000x256, .bf16⟩
  | .local _ .vmem, ⟨9, _⟩ => ⟨S200x256, .f32⟩
  | .local _ .vmem, ⟨10, _⟩ => ⟨S200x256, .f32⟩
  | .local _ .vmem, ⟨11, _⟩ => ⟨S200x10000, .f32⟩
  | .local _ .vmem, ⟨12, _⟩ => ⟨S200x10000, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S200x10000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bitsLt_bf16_f32 : FTy.bits .bf16 < FTy.bits .f32
  packedbf16_S2000x256_S2000x256_0_0 : (Rect.unit (s := S2000x256) ![0, 0] S2000x256.size inb_S2000x256_S2000x256_0_0).PackedRows (EltTy.packing .bf16)
  inb_S200x10000_S200x10000_0_0 : ∀ a, (![0, 0] : Fin 2 → Nat) a + S200x10000.size a ≤ S200x10000.size a
  h_S200x10000 : 0 < S200x10000.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S200x256_S200x256_0_0 : ∀ a, (![0, 0] : Fin 2 → Nat) a + S200x256.size a ≤ S200x256.size a
  h_S200x256 : 0 < S200x256.numel
  dot_S2000x256_S256x256_S2000x256_1_0_0_1_n_n_wf : DotDims.WF S2000x256 S256x256 S2000x256 [1] [0] [0] [1] [] []
  dot_S200x10000_S10000x256_S200x256_1_0_0_1_n_n_wf : DotDims.WF S200x10000 S10000x256 S200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S10000x256.size a
  hwx0_3 : ∀ i : grid0.Coords, EltTy.bits .bf16 = 32 ∨ (Rect.block (s := S10000x256) S2000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x256.size a ≤ S10000x256.size a
  hwx1_2 : ∀ i : grid1.Coords, EltTy.bits .f32 = 32 ∨ (Rect.block (s := S10000x256) S200x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x10000.size a ≤ S10000x10000.size a
  hwx1_3 : ∀ i : grid1.Coords, EltTy.bits .f32 = 32 ∨ (Rect.block (s := S10000x10000) S200x10000.size (cc1_transform_3 i) (hinb1_3 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S200x256.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S200x10000.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S10000x256, .f32⟩
  | .hbm, ⟨5, _⟩ => ⟨S1x256, .f32⟩
  | .hbm, ⟨6, _⟩ => ⟨S10000x256, .f32⟩
  | .hbm, ⟨7, _⟩ => ⟨S10000x256, .f32⟩
  | .hbm, ⟨8, _⟩ => ⟨S10000x256, .f32⟩
  | .hbm, ⟨9, _⟩ => ⟨S_, .f32⟩
  | .hbm, ⟨10, _⟩ => ⟨S10000x256, .f32⟩
  | .hbm, ⟨11, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.GraphConvSpec.lean ====
/-
  The graph convolution as one function of its four argument arrays, over the extended reals.

  For node features `x` (10000 × 256), a dense adjacency matrix `adj` (10000 × 10000), weights `w` (256 × 256) and a
  bias `b` (256):

    hidden[k, c] = (∑ j, x[k, j] · w[j, c]) + b[c]
    out[r, c]    = max (∑ k, adj[r, k] · hidden[k, c]) 0

  The bias reaches the hidden layer as a 1 × 256 row, so `hiddenRow` takes it in that layout and `biasRow` is the
  row made from the flat bias. Both programs compute exactly these sums in exactly this association (the bias is added
  to the finished inner sum, the maximum is taken of the finished outer sum), so no law of the extended reals beyond
  reading each operation at an index is needed, and the inputs' finiteness is never used.
-/
import Idealize.ShloMosaic.PureOps.Ideal
import Idealize.ShloMosaic.Lib.ValueIdx

noncomputable section

open scoped BigOperators

namespace Cert.GraphConv

open Idealize.ShloMosaic Idealize.ShloMosaic.ValueIdx

/-- Node features, hidden features and the result: 10000 nodes by 256 channels. -/
abbrev Feat : Shape := ⟨2, ![10000, 256]⟩
/-- The dense adjacency matrix. -/
abbrev Adj : Shape := ⟨2, ![10000, 10000]⟩
/-- The weights. -/
abbrev Wt : Shape := ⟨2, ![256, 256]⟩
/-- The bias, flat. -/
abbrev Bias : Shape := ⟨1, ![256]⟩
/-- The bias as a single row. -/
abbrev BiasRow : Shape := ⟨2, ![1, 256]⟩

/-- The flat bias laid out as one row: entry `(0, c)` of the row is entry `c` of the bias. -/
def biasRow (b : Bias.Idx → EReal) : BiasRow.Idx → EReal := fun q => b (ix1 (q 1))

/-- Entry `(k, c)` of the hidden layer: row `k` of `x` against column `c` of `w`, plus the bias row at `c`. -/
def hiddenAt (x : Feat.Idx → EReal) (w : Wt.Idx → EReal) (brow : BiasRow.Idx → EReal) (k : Fin 10000) (c : Fin 256) : EReal :=
  (∑ j : Fin 256, x (ix2 k j) * w (ix2 j c)) + brow (ix2 (0 : Fin 1) c)

/-- The hidden layer as an array. -/
def hiddenRow (x : Feat.Idx → EReal) (w : Wt.Idx → EReal) (brow : BiasRow.Idx → EReal) : Feat.Idx → EReal :=
  fun i => hiddenAt x w brow (i 0) (i 1)

/-- Entry `(r, c)` of the aggregation of a hidden layer `h`: row `r` of `adj` against column `c` of `h`, clamped
    below at the number the all-zero word denotes. -/
def aggAt (adj : Adj.Idx → EReal) (h : Feat.Idx → EReal) (r : Fin 10000) (c : Fin 256) : EReal :=
  max (∑ k : Fin 10000, adj (ix2 r k) * h (ix2 k c)) (Ideal.ofBits .f32 0x00000000#32)

/-- The aggregation as an array. -/
def agg (adj : Adj.Idx → EReal) (h : Feat.Idx → EReal) : Feat.Idx → EReal :=
  fun i => aggAt adj h (i 0) (i 1)

/-- The whole graph convolution. -/
def conv (x : Feat.Idx → EReal) (adj : Adj.Idx → EReal) (w : Wt.Idx → EReal) (b : Bias.Idx → EReal) : Feat.Idx → EReal :=
  agg adj (hiddenRow x w (biasRow b))

end Cert.GraphConv

end
-- ==== Proof.RefIsConv.lean ====
/-
  The reference program computes the graph convolution of GraphConvSpec: its two `dot_general`s are the two sums, its
  two broadcasts of the bias read the bias at the column, and its `relu` is the maximum against the zero word.
-/
import proofs.«126666_g15564961480952_cont_week2b_1514_7_alg».proof.Proof.Gen.ReferenceIdeal.Read
import proofs.«126666_g15564961480952_cont_week2b_1514_7_alg».proof.Proof.GraphConvSpec

noncomputable section

open scoped BigOperators

namespace Cert.GraphConv

open Idealize.ShloMosaic Idealize.ShloMosaic.ValueIdx Cert.ReferenceIdeal Cert.ReferenceIdeal.Read

/-- The reference's result, read one operation at a time at an index, is `conv` of its arguments. -/
theorem reference_eq_conv (x0 : Feat.Idx → EReal) (x1 : Adj.Idx → EReal) (x2 : Wt.Idx → EReal) (x3 : Bias.Idx → EReal) :
    val_main_v5 (F := Ideal) x0 x1 x2 x3 = conv x0 x1 x2 x3 := by
  funext i
  rw [val_main_v5_apply, val_main_v4_apply, val_main_call0_v0_apply, val_main_call0_cst_apply]
  show max _ _ = max _ _
  refine congrArg₂ max (Finset.sum_congr rfl fun k _ => ?_) rfl
  -- the outer product's factors: adj at (row of i, k) and the hidden layer at (k, column of i)
  have el : lidx_main_v4 i k = ix2 (i 0) k := funext fun a => by
    match a with
    | ⟨0, _⟩ => rfl
    | ⟨1, _⟩ => rfl
  rw [el]
  refine congrArg (x1 (ix2 (i 0) k) * ·) ?_
  rw [val_main_v3_apply, val_main_v0_apply, val_main_v2_apply, val_main_v1_apply]
  show _ + _ = _ + _
  refine congrArg₂ (· + ·) (Finset.sum_congr rfl fun j _ => ?_) ?_
  · -- the inner product's factors: x at (k, j) and w at (j, column of i)
    have ex : lidx_main_v0 (ridx_main_v4 i k) j = ix2 k j := funext fun a => by
      match a with
      | ⟨0, _⟩ => rfl
      | ⟨1, _⟩ => rfl
    have ew : ridx_main_v0 (ridx_main_v4 i k) j = ix2 j (i 1) := funext fun a => by
      match a with
      | ⟨0, _⟩ => rfl
      | ⟨1, _⟩ => rfl
    rw [ex, ew]
    rfl
  · -- the two broadcasts read the flat bias at the column of i
    refine congrArg x3 (funext fun a => ?_)
    match a with
    | ⟨0, _⟩ => rfl

end Cert.GraphConv

end
-- ==== Proof.BoundaryRun.lean ====
/-
  The kernel program's run with its two result buffers named.

  @main is a reshape of the bias, then the two launches. The contents of the TensorCore's buffers at the three boundaries
  between these segments are a fold from the launch memory: after the reshape (`W1`), after the first launch (`W2`: its
  arrays at what its write-backs leave, everything else as before) and after the second (`W3`, likewise). Every weakly
  fair execution terminates in a state whose unscoped buffers hold `W3`; the frame claim reads only the four arguments
  off that state, and here the two results are read off it as well.
-/
import proofs.«126666_g15564961480952_cont_week2b_1514_7_alg».proof.Proof.Gen.KernelIdeal.Frame

set_option maxRecDepth 16384

noncomputable section

namespace Cert.KernelIdeal.Boundary

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with each result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v2_0) = W3 m ρ c (Proc.devRef .tc main_v2_0)
      ∧ r.2.mem ((c.tc : Thread nD τ).loc main_v2_1) = W3 m ρ c (Proc.devRef .tc main_v2_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2_0 (by decide)),
       h c _ (mem_uc main_v2_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Boundary

end
-- ==== Proof.BlockValues.lean ====
/-
  What each kernel body stores, read at one entry of its block, over the extended reals.

  The first body holds a 2000-row block of `x`, all of `w` and the bias row, and stores
  `(∑ j, x[p, j] · w[j, q]) + bias[0, q]` at `(p, q)`: the matrix product starts from an all-zero accumulator, and the
  narrowing to the 16-bit format is the identity on extended reals. The second holds a 200-row block of `adj` and all of
  the hidden layer, and stores `max (∑ k, adj[p, k] · h[k, q]) 0` at `(p, q)`.
  A matrix product with one contracted axis is a sum over that axis' one coordinate: the contraction's index set is
  re-indexed by `Fin 256` (by `Fin 10000`) through `contrEquiv1`.
-/
import proofs.«126666_g15564961480952_cont_week2b_1514_7_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Blocks

open Idealize.ShloMosaic Idealize.ShloMosaic.ValueIdx Cert.KernelIdeal Cert.KernelIdeal.Gen

/-! ## The first product: a block of `x` against `w` -/

theorem lhsRow0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl

theorem rhsCol0 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The product into a zero accumulator, at `(p, q)`: row `p` of the left block against column `q` of the right. -/
theorem product0_apply (y0 : FVec Ideal S2000x256 .f32) (y1 : FVec Ideal S256x256 .f32) (p : Fin 2000) (q : Fin 256) :
    matmul dot_S2000x256_S256x256_S2000x256_1_0_0_1_n_n none y0 y1 (constant (F := Ideal) S2000x256 .f32 0x00000000#32) (ix2 p q)
      = ∑ j : Fin 256, y0 (ix2 p j) * y1 (ix2 j q) := by
  simp only [matmul]
  rw [Ideal.matmul_constant_zero_apply, ← Equiv.sum_comp (contrEquiv1 dot_S2000x256_S256x256_S2000x256_1_0_0_1_n_n 256 rfl rfl).symm]
  refine Finset.sum_congr rfl fun j _ => ?_
  have hj := contrEquiv1_symm_val dot_S2000x256_S256x256_S2000x256_1_0_0_1_n_n 256 rfl rfl j
  have el : dot_S2000x256_S256x256_S2000x256_1_0_0_1_n_n.lhsIdx (ix2 p q) ((contrEquiv1 dot_S2000x256_S256x256_S2000x256_1_0_0_1_n_n 256 rfl rfl).symm j) = ix2 p j := funext fun a => Fin.ext (by
    match a with
    | ⟨0, _⟩ => exact lhsRow0 _ _
    | ⟨1, _⟩ => exact (dot_S2000x256_S256x256_S2000x256_1_0_0_1_n_n.lhsIdx_val_of_single rfl _ _).trans hj)
  have er : dot_S2000x256_S256x256_S2000x256_1_0_0_1_n_n.rhsIdx (ix2 p q) ((contrEquiv1 dot_S2000x256_S256x256_S2000x256_1_0_0_1_n_n 256 rfl rfl).symm j) = ix2 j q := funext fun a => Fin.ext (by
    match a with
    | ⟨0, _⟩ => exact (dot_S2000x256_S256x256_S2000x256_1_0_0_1_n_n.rhsIdx_val_of_single rfl _ _).trans hj
    | ⟨1, _⟩ => exact rhsCol0 _ _)
  rw [el, er]

/-- What the first body stores at `(p, q)`. -/
theorem hidden_block (x0 : Vec Ideal S2000x256 .f32) (x1 : Vec Ideal S256x256 .f32) (x2 : Vec Ideal S1x256 .f32) (p : Fin 2000) (q : Fin 256) :
    k0_pay1 (F := Ideal) x0 x1 x2 (ix2 p q) = (∑ j : Fin 256, x0 (ix2 p j) * x1 (ix2 j q)) + x2 (ix2 (0 : Fin 1) q) := by
  unfold k0_pay1
  -- the narrowing is the identity and the sum of two arrays is entry by entry
  show matmul dot_S2000x256_S256x256_S2000x256_1_0_0_1_n_n none x0 x1 (constant (F := Ideal) S2000x256 .f32 0x00000000#32) (ix2 p q)
      + broadcastTo S2000x256 (shapeCast S1x256 x2 shapeCasts_S1x256_S1x256) broadcasts_S1x256_S2000x256 (ix2 p q) = _
  rw [shapeCast_self]
  exact congrArg₂ (· + ·) (product0_apply x0 x1 p q) (broadcastTo_1b_ab_apply x2 broadcasts_S1x256_S2000x256 p q)

/-! ## The second product: a block of `adj` against the hidden layer -/

theorem lhsRow1 (i : S200x256.Idx) (q : dot_S200x10000_S10000x256_S200x256_1_0_0_1_n_n.contr.Idx) : (dot_S200x10000_S10000x256_S200x256_1_0_0_1_n_n.lhsIdx i q 0).val = (i 0).val := by
  unfold DotDims.lhsIdx
  rw [dif_neg (show ¬(0 : Fin S200x10000.rank) ∈ dot_S200x10000_S10000x256_S200x256_1_0_0_1_n_n.lhsBatch by decide), dif_pos (show (0 : Fin S200x10000.rank) ∈ dot_S200x10000_S10000x256_S200x256_1_0_0_1_n_n.lhsNonContracting by decide)]
  rfl

theorem rhsCol1 (i : S200x256.Idx) (q : dot_S200x10000_S10000x256_S200x256_1_0_0_1_n_n.contr.Idx) : (dot_S200x10000_S10000x256_S200x256_1_0_0_1_n_n.rhsIdx i q 1).val = (i 1).val := by
  unfold DotDims.rhsIdx
  rw [dif_neg (show ¬(1 : Fin S10000x256.rank) ∈ dot_S200x10000_S10000x256_S200x256_1_0_0_1_n_n.rhsBatch by decide), dif_pos (show (1 : Fin S10000x256.rank) ∈ dot_S200x10000_S10000x256_S200x256_1_0_0_1_n_n.rhsNonContracting by decide)]
  rfl

/-- The product into a zero accumulator, at `(p, q)`: row `p` of the left block against column `q` of the right. -/
theorem product1_apply (y0 : FVec Ideal S200x10000 .bf16) (y1 : FVec Ideal S10000x256 .bf16) (p : Fin 200) (q : Fin 256) :
    matmul dot_S200x10000_S10000x256_S200x256_1_0_0_1_n_n none y0 y1 (constant (F := Ideal) S200x256 .f32 0x00000000#32) (ix2 p q)
      = ∑ k : Fin 10000, y0 (ix2 p k) * y1 (ix2 k q) := by
  simp only [matmul]
  rw [Ideal.matmul_constant_zero_apply, ← Equiv.sum_comp (contrEquiv1 dot_S200x10000_S10000x256_S200x256_1_0_0_1_n_n 10000 rfl rfl).symm]
  refine Finset.sum_congr rfl fun k _ => ?_
  have hk := contrEquiv1_symm_val dot_S200x10000_S10000x256_S200x256_1_0_0_1_n_n 10000 rfl rfl k
  have el : dot_S200x10000_S10000x256_S200x256_1_0_0_1_n_n.lhsIdx (ix2 p q) ((contrEquiv1 dot_S200x10000_S10000x256_S200x256_1_0_0_1_n_n 10000 rfl rfl).symm k) = ix2 p k := funext fun a => Fin.ext (by
    match a with
    | ⟨0, _⟩ => exact lhsRow1 _ _
    | ⟨1, _⟩ => exact (dot_S200x10000_S10000x256_S200x256_1_0_0_1_n_n.lhsIdx_val_of_single rfl _ _).trans hk)
  have er : dot_S200x10000_S10000x256_S200x256_1_0_0_1_n_n.rhsIdx (ix2 p q) ((contrEquiv1 dot_S200x10000_S10000x256_S200x256_1_0_0_1_n_n 10000 rfl rfl).symm k) = ix2 k q := funext fun a => Fin.ext (by
    match a with
    | ⟨0, _⟩ => exact (dot_S200x10000_S10000x256_S200x256_1_0_0_1_n_n.rhsIdx_val_of_single rfl _ _).trans hk
    | ⟨1, _⟩ => exact rhsCol1 _ _)
  rw [el, er]

/-- What the second body stores in the result block at `(p, q)`. -/
theorem agg_block (x0 : Vec Ideal S200x10000 .f32) (x3 : Vec Ideal S10000x256 .bf16) (p : Fin 200) (q : Fin 256) :
    k1_pay1 (F := Ideal) x0 x3 (ix2 p q) = max (∑ k : Fin 10000, x0 (ix2 p k) * x3 (ix2 k q)) (Ideal.ofBits .f32 0x00000000#32) := by
  unfold k1_pay1
  -- the maximum of two arrays is entry by entry; the splat zero reads the zero word
  show max (matmul dot_S200x10000_S10000x256_S200x256_1_0_0_1_n_n none (truncf .bf16 x0 bitsLt_bf16_f32) (shapeCast S10000x256 x3 shapeCasts_S10000x256_S10000x256)
      (constant (F := Ideal) S200x256 .f32 0x00000000#32) (ix2 p q)) (Ideal.ofBits .f32 0x00000000#32) = _
  rw [shapeCast_self]
  -- the narrowing of the adjacency block is the identity
  exact congrArg (max · (Ideal.ofBits .f32 0x00000000#32)) (product1_apply (truncf .bf16 x0 bitsLt_bf16_f32) x3 p q)

end Cert.KernelIdeal.Blocks

end
-- ==== Proof.HiddenArray.lean ====
/-
  The first launch leaves the hidden layer in its result array.

  Its grid has 5 points; point `t` holds rows `2000·t … 2000·t + 1999` of `x`, all of `w` and the bias row, and writes
  back rows `2000·t … 2000·t + 1999` of the result. Entry `(p, q)` of that block is the hidden layer at row
  `2000·t + p`, column `q`; the five blocks tile the 10000 rows, so the array ends as the hidden layer of the arrays the
  launch found.
-/
import proofs.«126666_g15564961480952_cont_week2b_1514_7_alg».proof.Proof.Gen.KernelIdeal.Frame
import proofs.«126666_g15564961480952_cont_week2b_1514_7_alg».proof.Proof.BlockValues
import proofs.«126666_g15564961480952_cont_week2b_1514_7_alg».proof.Proof.GraphConvSpec

set_option maxRecDepth 16384

noncomputable section

open scoped BigOperators

namespace Cert.KernelIdeal.HiddenLayer

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphConv

-- the TensorCore's buffer contents when the launch is entered
variable (V : (c : Dev nD) → (b : Ref sig .tc) → Buf (Elt Ideal) ((c : Thread nD τ).loc b))

theorem corner : (![0, 0] : Fin 2 → Nat) = fun _ => 0 := funext fun a => by fin_cases a <;> rfl

/-- The block index maps over the grid: `x`'s and the result's block at point `t` is row block `t`; `w` and the bias
    row are one block each. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the hidden layer of the arrays the launch found. -/
theorem flushed_eq (c : Dev nD) (t : Fin cfg0.N) :
    (dat0 V c).flushed 3 t
      = ((cfg0.win 3).blk t).view.read (Elt Ideal) (hiddenRow (V c main_arg0) (V c main_arg2) (V c main_v0)) := by
  show (cfg0.win 3).cut (grid0.coords t) ((dat0 V c).after 3 t) = _
  rw [after0_3]
  unfold out0_3
  rw [View.canon_unit_zero corner]
  simp only [View.ld_unit_zero (S := S2000x256) corner, View.ld_unit_zero (S := S256x256) corner, View.ld_unit_zero (S := S1x256) corner]
  obtain ⟨e00, e01, e10, e11, e20, e21, e30, e31⟩ := index_facts t
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (ix2 p q)
      = hiddenAt (V c main_arg0) (V c main_arg2) (V c main_v0)
          ((((cfg0.win 3).blk t).view.emb (ix2 p q)) 0) ((((cfg0.win 3).blk t).view.emb (ix2 p q)) 1)
  refine (Blocks.hidden_block (iblk0 V c 0 t) (iblk0 V c 1 t) (iblk0 V c 2 t) p q).trans ?_
  unfold hiddenAt
  refine congrArg₂ (· + ·) (Finset.sum_congr rfl fun j _ => congrArg₂ (· * ·) ?_ ?_) ?_
  · -- x's block at (p, j) is x at (row of the result's entry, j)
    show (V c main_arg0 : Feat.Idx → EReal) (((cfg0.win 0).blk t).view.emb (ix2 p j)) = _
    refine congrArg (V c main_arg0 : Feat.Idx → EReal) (funext fun a => Fin.ext ?_)
    match a with
    | ⟨0, _⟩ => show win0_0.index t (0 : Fin 2) * 2000 + 1 * p.val = win0_3.index t (0 : Fin 2) * 2000 + 1 * p.val; omega
    | ⟨1, _⟩ => show win0_0.index t (1 : Fin 2) * 256 + 1 * j.val = j.val; omega
  · -- w's one block at (j, q) is w at (j, column of the result's entry)
    show (V c main_arg2 : Wt.Idx → EReal) (((cfg0.win 1).blk t).view.emb (ix2 j q)) = _
    refine congrArg (V c main_arg2 : Wt.Idx → EReal) (funext fun a => Fin.ext ?_)
    match a with
    | ⟨0, _⟩ => show win0_1.index t (0 : Fin 2) * 256 + 1 * j.val = j.val; omega
    | ⟨1, _⟩ => show win0_1.index t (1 : Fin 2) * 256 + 1 * q.val = win0_3.index t (1 : Fin 2) * 256 + 1 * q.val; omega
  · -- the bias row's one block at (0, q) is the row at (0, column of the result's entry)
    show (V c main_v0 : BiasRow.Idx → EReal) (((cfg0.win 2).blk t).view.emb (ix2 (0 : Fin 1) q)) = _
    refine congrArg (V c main_v0 : BiasRow.Idx → EReal) (funext fun a => Fin.ext ?_)
    match a with
    | ⟨0, _⟩ => show win0_2.index t (0 : Fin 2) * 1 + 1 * 0 = 0; omega
    | ⟨1, _⟩ => show win0_2.index t (1 : Fin 2) * 256 + 1 * q.val = win0_3.index t (1 : Fin 2) * 256 + 1 * q.val; omega

/-- Index `i` of the result array is in point `t`'s block iff each coordinate is in the block's range on its axis. -/
theorem mem_block (t : Fin cfg0.N) (i : S10000x256.Idx) :
    i ∈ ((cfg0.win 3).blk t).view.set
      ↔ ∀ a : Fin 2, win0_3.index t a * S2000x256.size a ≤ (i a).val ∧ (i a).val < win0_3.index t a * S2000x256.size a + S2000x256.size a := by
  show i ∈ ((View.whole main_v1).slice (win0_3.rect t)).set ↔ _
  rw [View.set_slice_whole, Rect.mem_set_unit]
  exact Iff.rfl

/-- Every row of the result is in the block of the point numbered by the row divided by 2000. -/
theorem cover (i : S10000x256.Idx) : ∃ t : Fin cfg0.N, (cfg0.win 3).flush t = true ∧ i ∈ ((cfg0.win 3).blk t).view.set := by
  have hi0 : (i 0).val < 10000 := (i 0).isLt
  have hi1 : (i 1).val < 256 := (i 1).isLt
  have hN : cfg0.N = 5 := N_0
  have ht : (i 0).val / 2000 < cfg0.N := by rw [hN]; omega
  refine ⟨⟨(i 0).val / 2000, ht⟩, flush0_3 _, ?_⟩
  rw [mem_block]
  obtain ⟨-, -, -, -, -, -, e30, e31⟩ := index_facts ⟨(i 0).val / 2000, ht⟩
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win0_3.index ⟨(i 0).val / 2000, ht⟩ (1 : Fin 2) * 256 ≤ (i 1).val ∧ (i 1).val < win0_3.index ⟨(i 0).val / 2000, ht⟩ (1 : Fin 2) * 256 + 256
    rw [e31]
    omega

/-- The result array after the launch: the hidden layer of the arrays the launch found. -/
theorem final (c : Dev nD) :
    (dat0 V c).arrAt 3 cfg0.N = hiddenRow (V c main_arg0) (V c main_arg2) (V c main_v0) :=
  (dat0 V c).arrAt_eq_of_cover 3 _ (fun t _ => flushed_eq V c t) cover

end Cert.KernelIdeal.HiddenLayer

end
-- ==== Proof.AggArray.lean ====
/-
  The second launch leaves the aggregation in its first result array and a copy of the adjacency matrix in its second.

  Its grid has 50 points; point `t` holds rows `200·t … 200·t + 199` of `adj` and all of the hidden layer, and writes back
  rows `200·t … 200·t + 199` of both results. Entry `(p, q)` of the first block is the aggregation at row `200·t + p`,
  column `q`; the second block is the block of `adj` it was given. The fifty blocks tile the 10000 rows of each result.
-/
import proofs.«126666_g15564961480952_cont_week2b_1514_7_alg».proof.Proof.Gen.KernelIdeal.Frame
import proofs.«126666_g15564961480952_cont_week2b_1514_7_alg».proof.Proof.BlockValues
import proofs.«126666_g15564961480952_cont_week2b_1514_7_alg».proof.Proof.GraphConvSpec

set_option maxRecDepth 16384

noncomputable section

open scoped BigOperators

namespace Cert.KernelIdeal.Aggregation

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GraphConv

-- the TensorCore's buffer contents when the launch is entered
variable (V : (c : Dev nD) → (b : Ref sig .tc) → Buf (Elt Ideal) ((c : Thread nD τ).loc b))

theorem corner : (![0, 0] : Fin 2 → Nat) = fun _ => 0 := funext fun a => by fin_cases a <;> rfl

/-- The block index maps over the grid: `adj`'s and both results' block at point `t` is row block `t`; the hidden layer
    is one block. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-! ## The aggregated result -/

/-- What point `t` writes back to the first result is block `t` of the aggregation of the arrays the launch found. -/
theorem flushed_result (c : Dev nD) (t : Fin cfg1.N) :
    (dat1 V c).flushed 2 t
      = ((cfg1.win 2).blk t).view.read (Elt Ideal) (agg (V c main_arg1) (V c main_v1)) := by
  show (cfg1.win 2).cut (grid1.coords t) ((dat1 V c).after 2 t) = _
  rw [after1_2]
  unfold out1_2
  rw [View.canon_unit_zero corner]
  simp only [View.ld_unit_zero (S := S200x10000) corner, View.ld_unit_zero (S := S10000x256) corner]
  obtain ⟨e00, e01, e10, e11, e20, e21, e30, e31⟩ := index_facts t
  funext j
  obtain ⟨p, q, rfl⟩ : ∃ (p : Fin 200) (q : Fin 256), j = ix2 p q := ⟨j 0, j 1, eq_ix2 j⟩
  show k1_pay1 (F := Ideal) (iblk1 V c 0 t) (iblk1 V c 1 t) (ix2 p q)
      = aggAt (V c main_arg1) (V c main_v1)
          ((((cfg1.win 2).blk t).view.emb (ix2 p q)) 0) ((((cfg1.win 2).blk t).view.emb (ix2 p q)) 1)
  refine (Blocks.agg_block (iblk1 V c 0 t) (iblk1 V c 1 t) p q).trans ?_
  unfold aggAt
  refine congrArg (max · (Ideal.ofBits .f32 0x00000000#32)) (Finset.sum_congr rfl fun k _ => congrArg₂ (· * ·) ?_ ?_)
  · -- adj's block at (p, k) is adj at (row of the result's entry, k)
    show (V c main_arg1 : Adj.Idx → EReal) (((cfg1.win 0).blk t).view.emb (ix2 p k)) = _
    refine congrArg (V c main_arg1 : Adj.Idx → EReal) (funext fun a => Fin.ext ?_)
    match a with
    | ⟨0, _⟩ => show win1_0.index t (0 : Fin 2) * 200 + 1 * p.val = win1_2.index t (0 : Fin 2) * 200 + 1 * p.val; omega
    | ⟨1, _⟩ => show win1_0.index t (1 : Fin 2) * 10000 + 1 * k.val = k.val; omega
  · -- the hidden layer's one block at (k, q) is the hidden layer at (k, column of the result's entry)
    show (V c main_v1 : Feat.Idx → EReal) (((cfg1.win 1).blk t).view.emb (ix2 k q)) = _
    refine congrArg (V c main_v1 : Feat.Idx → EReal) (funext fun a => Fin.ext ?_)
    match a with
    | ⟨0, _⟩ => show win1_1.index t (0 : Fin 2) * 10000 + 1 * k.val = k.val; omega
    | ⟨1, _⟩ => show win1_1.index t (1 : Fin 2) * 256 + 1 * q.val = win1_2.index t (1 : Fin 2) * 256 + 1 * q.val; omega

/-- Index `i` of the first result is in point `t`'s block iff each coordinate is in the block's range on its axis. -/
theorem mem_result_block (t : Fin cfg1.N) (i : S10000x256.Idx) :
    i ∈ ((cfg1.win 2).blk t).view.set
      ↔ ∀ a : Fin 2, win1_2.index t a * S200x256.size a ≤ (i a).val ∧ (i a).val < win1_2.index t a * S200x256.size a + S200x256.size a := by
  show i ∈ ((View.whole main_v2_0).slice (win1_2.rect t)).set ↔ _
  rw [View.set_slice_whole, Rect.mem_set_unit]
  exact Iff.rfl

/-- Every row of the first result is in the block of the point numbered by the row divided by 200. -/
theorem cover_result (i : S10000x256.Idx) : ∃ t : Fin cfg1.N, (cfg1.win 2).flush t = true ∧ i ∈ ((cfg1.win 2).blk t).view.set := by
  have hi0 : (i 0).val < 10000 := (i 0).isLt
  have hi1 : (i 1).val < 256 := (i 1).isLt
  have hN : cfg1.N = 50 := N_1
  have ht : (i 0).val / 200 < cfg1.N := by rw [hN]; omega
  refine ⟨⟨(i 0).val / 200, ht⟩, flush1_2 _, ?_⟩
  rw [mem_result_block]
  obtain ⟨-, -, -, -, e20, e21, -, -⟩ := index_facts ⟨(i 0).val / 200, ht⟩
  intro a
  match a with
  | ⟨0, _⟩ =>
    show win1_2.index ⟨(i 0).val / 200, ht⟩ (0 : Fin 2) * 200 ≤ (i 0).val ∧ (i 0).val < win1_2.index ⟨(i 0).val / 200, ht⟩ (0 : Fin 2) * 200 + 200
    rw [e20]
    show (i 0).val / 200 * 200 ≤ (i 0).val ∧ (i 0).val < (i 0).val / 200 * 200 + 200
    omega
  | ⟨1, _⟩ =>
    show win1_2.index ⟨(i 0).val / 200, ht⟩ (1 : Fin 2) * 256 ≤ (i 1).val ∧ (i 1).val < win1_2.index ⟨(i 0).val / 200, ht⟩ (1 : Fin 2) * 256 + 256
    rw [e21]
    omega

/-- The first result after the launch: the aggregation of the arrays the launch found. -/
theorem final_result (c : Dev nD) :
    (dat1 V c).arrAt 2 cfg1.N = agg (V c main_arg1) (V c main_v1) :=
  (dat1 V c).arrAt_eq_of_cover 2 _ (fun t _ => flushed_result V c t) cover_result

/-! ## The adjacency matrix passed through -/

/-- What point `t` writes back to the second result is block `t` of the adjacency matrix the launch found. -/
theorem flushed_copy (c : Dev nD) (t : Fin cfg1.N) :
    (dat1 V c).flushed 3 t
      = ((cfg1.win 3).blk t).view.read (Elt Ideal) (V c main_arg1 : Adj.Idx → EReal) := by
  show (cfg1.win 3).cut (grid1.coords t) ((dat1 V c).after 3 t) = _
  rw [after1_3]
  unfold out1_3
  rw [View.canon_unit_zero corner]
  simp only [View.ld_unit_zero (S := S200x10000) corner]
  obtain ⟨e00, e01, e10, e11, e20, e21, e30, e31⟩ := index_facts t
  funext j
  obtain ⟨p, k, rfl⟩ : ∃ (p : Fin 200) (k : Fin 10000), j = ix2 p k := ⟨j 0, j 1, eq_ix2 j⟩
  show (V c main_arg1 : Adj.Idx → EReal) (((cfg1.win 0).blk t).view.emb (ix2 p k))
      = (V c main_arg1 : Adj.Idx → EReal) (((cfg1.win 3).blk t).view.emb (ix2 p k))
  refine congrArg (V c main_arg1 : Adj.Idx → EReal) (funext fun a => Fin.ext ?_)
  match a with
  | ⟨0, _⟩ => show win1_0.index t (0 : Fin 2) * 200 + 1 * p.val = win1_3.index t (0 : Fin 2) * 200 + 1 * p.val; omega
  | ⟨1, _⟩ => show win1_0.index t (1 : Fin 2) * 10000 + 1 * k.val = win1_3.index t (1 : Fin 2) * 10000 + 1 * k.val; omega

/-- Index `i` of the second result is in point `t`'s block iff each coordinate is in the block's range on its axis. -/
theorem mem_copy_block (t : Fin cfg1.N) (i : S10000x10000.Idx) :
    i ∈ ((cfg1.win 3).blk t).view.set
      ↔ ∀ a : Fin 2, win1_3.index t a * S200x10000.size a ≤ (i a).val ∧ (i a).val < win1_3.index t a * S200x10000.size a + S200x10000.size a := by
  show i ∈ ((View.whole main_v2_1).slice (win1_3.rect t)).set ↔ _
  rw [View.set_slice_whole, Rect.mem_set_unit]
  exact Iff.rfl

/-- Every row of the second result is in the block of the point numbered by the row divided by 200. -/
theorem cover_copy (i : S10000x10000.Idx) : ∃ t : Fin cfg1.N, (cfg1.win 3).flush t = true ∧ i ∈ ((cfg1.win 3).blk t).view.set := by
  have hi0 : (i 0).val < 10000 := (i 0).isLt
  have hi1 : (i 1).val < 10000 := (i 1).isLt
  have hN : cfg1.N = 50 := N_1
  have ht : (i 0).val / 200 < cfg1.N := by rw [hN]; omega
  refine ⟨⟨(i 0).val / 200, ht⟩, flush1_3 _, ?_⟩
  rw [mem_copy_block]
  obtain ⟨-, -, -, -, -, -, e30, e31⟩ := index_facts ⟨(i 0).val / 200, ht⟩
  intro a
  match a with
  | ⟨0, _⟩ =>
    show win1_3.index ⟨(i 0).val / 200, ht⟩ (0 : Fin 2) * 200 ≤ (i 0).val ∧ (i 0).val < win1_3.index ⟨(i 0).val / 200, ht⟩ (0 : Fin 2) * 200 + 200
    rw [e30]
    show (i 0).val / 200 * 200 ≤ (i 0).val ∧ (i 0).val < (i 0).val / 200 * 200 + 200
    omega
  | ⟨1, _⟩ =>
    show win1_3.index ⟨(i 0).val / 200, ht⟩ (1 : Fin 2) * 10000 ≤ (i 1).val ∧ (i 1).val < win1_3.index ⟨(i 0).val / 200, ht⟩ (1 : Fin 2) * 10000 + 10000
    rw [e31]
    omega

/-- The second result after the launch: the adjacency matrix the launch found. -/
theorem final_copy (c : Dev nD) :
    (dat1 V c).arrAt 3 cfg1.N = (V c main_arg1 : Adj.Idx → EReal) :=
  (dat1 V c).arrAt_eq_of_cover 3 _ (fun t _ => flushed_copy V c t) cover_copy

end Cert.KernelIdeal.Aggregation

end
-- ==== Proof.ConvValue.lean ====
/-
  The kernel program's results as functions of its arguments.

  Walking the boundaries back: the second launch finds `adj` as launched (nothing before it writes that buffer) and, in
  the first launch's result array, the hidden layer of what the first launch found; the first launch finds `x` and `w`
  as launched and, in the buffer the host reshape wrote, the bias as one row. So the first result is the graph
  convolution of the four arguments and the second is `adj`.
-/
import proofs.«126666_g15564961480952_cont_week2b_1514_7_alg».proof.Proof.BoundaryRun
import proofs.«126666_g15564961480952_cont_week2b_1514_7_alg».proof.Proof.HiddenArray
import proofs.«126666_g15564961480952_cont_week2b_1514_7_alg».proof.Proof.AggArray
import proofs.«126666_g15564961480952_cont_week2b_1514_7_alg».proof.Proof.GraphConvSpec
import Idealize.ShloMosaic.Lib.StableHlo.Run
import Idealize.ShloMosaic.Lib.Pipeline.Value

set_option maxRecDepth 16384

noncomputable section

namespace Cert.KernelIdeal.ConvValue

open Idealize.ShloMosaic Idealize.ShloMosaic.TcCoe Idealize.ShloMosaic.ValueIdx Idealize.SL.Sem
open Idealize.ShloMosaic.StableHlo
open Cert.KernelIdeal Cert.KernelIdeal.Gen Cert.GraphConv

variable (m : (ℓ : Loc nD τ sig) → Buf (Elt Ideal) ℓ) (ρ : Dev nD → PrngReg)

/-! ## What the first launch finds -/

/-- The host reshape does not write `x`. -/
theorem entry_x (c : Dev nD) : W1 m ρ c (Proc.devRef .tc main_arg0) = m ((c : Thread nD τ).loc main_arg0) :=
  (StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))).trans rfl

/-- The host reshape does not write `w`. -/
theorem entry_w (c : Dev nD) : W1 m ρ c (Proc.devRef .tc main_arg2) = m ((c : Thread nD τ).loc main_arg2) :=
  (StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))).trans rfl

/-- The host reshape does not write `adj`. -/
theorem entry_adj (c : Dev nD) : W1 m ρ c (Proc.devRef .tc main_arg1) = m ((c : Thread nD τ).loc main_arg1) :=
  (StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))).trans rfl

/-- A flat array of 256 entries recast as one row of 256 is read at `(0, q)` where the flat one is read at `q`. -/
theorem reshape_bias (b : Bias.Idx → EReal) : shapeCast S1x256 b shapeCasts_S256_S1x256 = biasRow b := by
  funext j
  refine (shapeCast_addUnit_apply (n := 1) ![256] b shapeCasts_S256_S1x256 j).trans ?_
  refine congrArg b (funext fun a => ?_)
  match a with
  | ⟨0, _⟩ => rfl

/-- The buffer the host reshape wrote holds the bias as one row. -/
theorem entry_bias (c : Dev nD) :
    (V1 m ρ c main_v0 : BiasRow.Idx → EReal) = biasRow (m ((c : Thread nD τ).loc main_arg3)) := by
  have e : (V1 m ρ c main_v0 : BiasRow.Idx → EReal)
      = shapeCast S1x256 (m ((c : Thread nD τ).loc main_arg3)) shapeCasts_S256_S1x256 := by
    dsimp only [V1, W1, hostOps0]; after_results; rfl
  rw [e, reshape_bias]

/-! ## What the second launch finds -/

/-- The first launch does not touch `adj`. -/
theorem mid_adj (c : Dev nD) : W2 m ρ c (Proc.devRef .tc main_arg1) = m ((c : Thread nD τ).loc main_arg1) :=
  (W2_of_ne m ρ c main_arg1 (by decide)).trans (entry_adj m ρ c)

/-- The first launch's result array holds the hidden layer of the arguments. -/
theorem mid_hidden (c : Dev nD) :
    (W2 m ρ c (Proc.devRef .tc main_v1) : Feat.Idx → EReal)
      = hiddenRow (m ((c : Thread nD τ).loc main_arg0)) (m ((c : Thread nD τ).loc main_arg2)) (biasRow (m ((c : Thread nD τ).loc main_arg3))) :=
  (W2_arr m ρ c 3).trans ((HiddenLayer.final (V1 m ρ) c).trans
    (congr (congrArg₂ hiddenRow (entry_x m ρ c) (entry_w m ρ c)) (entry_bias m ρ c)))

/-! ## The results -/

/-- The first result buffer at the last boundary: the graph convolution of the arguments. -/
theorem result_eq (c : Dev nD) :
    (W3 m ρ c (Proc.devRef .tc main_v2_0) : Feat.Idx → EReal)
      = conv (m ((c : Thread nD τ).loc main_arg0)) (m ((c : Thread nD τ).loc main_arg1)) (m ((c : Thread nD τ).loc main_arg2)) (m ((c : Thread nD τ).loc main_arg3)) :=
  (W3_arr m ρ c 2).trans ((Aggregation.final_result (V2 m ρ) c).trans
    (congrArg₂ agg (mid_adj m ρ c) (mid_hidden m ρ c)))

/-- The second result buffer at the last boundary: the adjacency matrix as launched. -/
theorem copy_eq (c : Dev nD) :
    (W3 m ρ c (Proc.devRef .tc main_v2_1) : Adj.Idx → EReal) = m ((c : Thread nD τ).loc main_arg1) :=
  (W3_arr m ρ c 3).trans ((Aggregation.final_copy (V2 m ρ) c).trans (mid_adj m ρ c))

/-- Every weakly fair execution of the kernel program terminates, nothing faulting, with the first result at the graph
    convolution of the arguments, the second at the adjacency matrix, and the arguments as launched. -/
theorem run : θ_run defs (onTc (τ := τ) (main (F := Ideal))) ⟨m, fun _ => 0, ρ⟩ (fun r => ∀ c : Dev nD,
      r.2.mem ((c.tc : Thread nD τ).loc main_v2_0)
        = conv (m ((c : Thread nD τ).loc main_arg0)) (m ((c : Thread nD τ).loc main_arg1)) (m ((c : Thread nD τ).loc main_arg2)) (m ((c : Thread nD τ).loc main_arg3))
      ∧ r.2.mem ((c.tc : Thread nD τ).loc main_v2_1) = m ((c : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2.1.trans (copy_eq m ρ c), (h c).2.2⟩)
    (Boundary.run m ρ)

end Cert.KernelIdeal.ConvValue

end
-- ==== Proof.lean ====
/-
  A graph convolution, `out = max (adj · (x · w + b)) 0` together with `adj` passed through, computed by two kernel launches
  (the hidden layer `x · w + b` in row blocks of 2000, stored in a 16-bit format; then `adj` against it in row blocks of
  200, with the block of `adj` written back out as the second result), against the same formula computed by whole-array
  operations.

  Over the extended reals a change of float format is the identity and each matrix product is the plain sum over its
  contracted axis, so both programs compute, entry by entry,

    out[r, c] = max (∑ k, adj[r, k] · ((∑ j, x[k, j] · w[j, c]) + b[c])) 0

  in the same association: nothing is distributed, cancelled or reordered, and the inputs' finiteness is not used.
  GraphConvSpec states that function; RefIsConv reads the reference's operations at an index and finds it; BlockValues
  reads what each kernel body stores at an entry of its block; HiddenArray and AggArray put each launch's blocks together
  into its result arrays (five blocks of 2000 rows, fifty of 200); BoundaryRun names the result buffers at the end of the
  run; ConvValue walks the buffers back to the launch memory. The three frame claims are the generated frames (the
  reference's is its generated run with the result dropped), and the kernel's idealization rewrote nothing.
-/
import proofs.«126666_g15564961480952_cont_week2b_1514_7_alg».proof.Defs
import proofs.«126666_g15564961480952_cont_week2b_1514_7_alg».proof.Proof.Gen.Kernel
import proofs.«126666_g15564961480952_cont_week2b_1514_7_alg».proof.Proof.Gen.Kernel.Skeleton
import proofs.«126666_g15564961480952_cont_week2b_1514_7_alg».proof.Proof.Gen.Kernel.Launch
import proofs.«126666_g15564961480952_cont_week2b_1514_7_alg».proof.Proof.Gen.Kernel.Points
import proofs.«126666_g15564961480952_cont_week2b_1514_7_alg».proof.Proof.Gen.Kernel.Frame
import proofs.«126666_g15564961480952_cont_week2b_1514_7_alg».proof.Proof.Gen.KernelIdeal
import proofs.«126666_g15564961480952_cont_week2b_1514_7_alg».proof.Proof.Gen.KernelIdeal.Skeleton
import proofs.«126666_g15564961480952_cont_week2b_1514_7_alg».proof.Proof.Gen.KernelIdeal.Launch
import proofs.«126666_g15564961480952_cont_week2b_1514_7_alg».proof.Proof.Gen.KernelIdeal.Points
import proofs.«126666_g15564961480952_cont_week2b_1514_7_alg».proof.Proof.Gen.KernelIdeal.Frame
import proofs.«126666_g15564961480952_cont_week2b_1514_7_alg».proof.Proof.Gen.ReferenceIdeal
import proofs.«126666_g15564961480952_cont_week2b_1514_7_alg».proof.Proof.Gen.Pre_finite_inputs
import proofs.«126666_g15564961480952_cont_week2b_1514_7_alg».proof.Proof.Gen.ReferenceIdeal.Run
import proofs.«126666_g15564961480952_cont_week2b_1514_7_alg».proof.Proof.Gen.ReferenceIdeal.Read
import proofs.«126666_g15564961480952_cont_week2b_1514_7_alg».proof.Proof.RefIsConv
import proofs.«126666_g15564961480952_cont_week2b_1514_7_alg».proof.Proof.ConvValue
import Idealize.ShloMosaic.Adequacy
import Idealize.ShloMosaic.Init

noncomputable section

namespace Cert.Proof

open Idealize.ShloMosaic Idealize.SL.Sem Cert.Kernel

/-- The word-level kernel program runs and leaves its arguments as launched. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- So does the reference: its run, with what it says about the result dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- From memories agreeing on the four arguments both programs end with the graph convolution of the arguments in the
    first result and the adjacency matrix in the second. -/
theorem algebraic : Cert.algebraic_KernelIdeal_ReferenceIdeal := by
  intro m ρ m' ρ' _ hagree
  refine ⟨fun c => Cert.GraphConv.conv (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => m ((c.tc : Thread Cert.KernelIdeal.nD Cert.KernelIdeal.τ).loc Cert.KernelIdeal.main_arg1),
    Cert.KernelIdeal.ConvValue.run m ρ, ?_⟩
  refine (θ_run Cert.ReferenceIdeal.defs _ _).mono (fun _ h c => ⟨?_, (h c).2.1.trans (hagree c).2.1, (h c).2.2⟩)
    (Cert.ReferenceIdeal.Value.run (F := Ideal) m' ρ')
  rw [(h c).1, Cert.ReferenceIdeal.Read.val_main_v5_eq, Cert.GraphConv.reference_eq_conv,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
